-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x640000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S50000x1 : Shape := ⟨2, ![50000, 1]⟩
abbrev S690000x128 : Shape := ⟨2, ![690000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 44
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S50000, .i32⟩
  | .hbm, ⟨5, _⟩ => ⟨S1x640000, .i32⟩
  | .hbm, ⟨6, _⟩ => ⟨S640000, .i32⟩
  | .hbm, ⟨7, _⟩ => ⟨S690000, .i32⟩
  | .hbm, ⟨8, _⟩ => ⟨S1x640000, .i32⟩
  | .hbm, ⟨9, _⟩ => ⟨S640000, .i32⟩
  | .hbm, ⟨10, _⟩ => ⟨S690000, .i32⟩
  | .hbm, ⟨11, _⟩ => ⟨S_, .f32⟩
  | .hbm, ⟨12, _⟩ => ⟨S690000, .f32⟩
  | .hbm, ⟨13, _⟩ => ⟨S_, .f32⟩
  | .hbm, ⟨14, _⟩ => ⟨S50000, .f32⟩
  | .hbm, ⟨15, _⟩ => ⟨S690000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x128, .f32⟩
  | .hbm, ⟨27, _⟩ => ⟨S50000x128, .f32⟩
  | .hbm, ⟨28, _⟩ => ⟨S_, .i32⟩
  | .hbm, ⟨29, _⟩ => ⟨S690000, .i32⟩
  | .hbm, ⟨30, _⟩ => ⟨S690000, .i1⟩
  | .hbm, ⟨31, _⟩ => ⟨S_, .i32⟩
  | .hbm, ⟨32, _⟩ => ⟨S690000, .i32⟩
  | .hbm, ⟨33, _⟩ => ⟨S690000, .i32⟩
  | .hbm, ⟨34, _⟩ => ⟨S690000, .i32⟩
  | .hbm, ⟨35, _⟩ => ⟨S690000x1, .i32⟩
  | .hbm, ⟨36, _⟩ => ⟨S690000x128, .f32⟩
  | .hbm, ⟨37, _⟩ => ⟨S_, .f32⟩
  | .hbm, ⟨38, _⟩ => ⟨S50000x128, .f32⟩
  | .hbm, ⟨39, _⟩ => ⟨S690000x1, .i32⟩
  | .hbm, ⟨40, _⟩ => ⟨S50000x128, .f32⟩
  | .hbm, ⟨41, _⟩ => ⟨S50000x1, .f32⟩
  | .hbm, ⟨42, _⟩ => ⟨S1x128, .f32⟩
  | .hbm, ⟨43, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S690000x1_S690000_n_0_0_1_wf : ScatterDims.WF S50000 S690000x1 S690000 [] [0] [0] 1
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S690000x128 : Shape := ⟨2, ![690000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S50000, .i32⟩
  | .hbm, ⟨5, _⟩ => ⟨S1x640000, .i32⟩
  | .hbm, ⟨6, _⟩ => ⟨S640000, .i32⟩
  | .hbm, ⟨7, _⟩ => ⟨S690000, .i32⟩
  | .hbm, ⟨8, _⟩ => ⟨S1x640000, .i32⟩
  | .hbm, ⟨9, _⟩ => ⟨S640000, .i32⟩
  | .hbm, ⟨10, _⟩ => ⟨S690000, .i32⟩
  | .hbm, ⟨11, _⟩ => ⟨S_, .f32⟩
  | .hbm, ⟨12, _⟩ => ⟨S690000, .f32⟩
  | .hbm, ⟨13, _⟩ => ⟨S_, .f32⟩
  | .hbm, ⟨14, _⟩ => ⟨S50000, .f32⟩
  | .hbm, ⟨15, _⟩ => ⟨S690000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S690000, .i32⟩
  | .hbm, ⟨27, _⟩ => ⟨S690000, .i1⟩
  | .hbm, ⟨28, _⟩ => ⟨S_, .i32⟩
  | .hbm, ⟨29, _⟩ => ⟨S690000, .i32⟩
  | .hbm, ⟨30, _⟩ => ⟨S690000, .i32⟩
  | .hbm, ⟨31, _⟩ => ⟨S690000, .i32⟩
  | .hbm, ⟨32, _⟩ => ⟨S690000x1, .i32⟩
  | .hbm, ⟨33, _⟩ => ⟨S690000, .f32⟩
  | .hbm, ⟨34, _⟩ => ⟨S_, .i32⟩
  | .hbm, ⟨35, _⟩ => ⟨S690000, .i32⟩
  | .hbm, ⟨36, _⟩ => ⟨S690000, .i1⟩
  | .hbm, ⟨37, _⟩ => ⟨S_, .i32⟩
  | .hbm, ⟨38, _⟩ => ⟨S690000, .i32⟩
  | .hbm, ⟨39, _⟩ => ⟨S690000, .i32⟩
  | .hbm, ⟨40, _⟩ => ⟨S690000, .i32⟩
  | .hbm, ⟨41, _⟩ => ⟨S690000x1, .i32⟩
  | .hbm, ⟨42, _⟩ => ⟨S690000, .f32⟩
  | .hbm, ⟨43, _⟩ => ⟨S690000, .f32⟩
  | .hbm, ⟨44, _⟩ => ⟨S50000x128, .f32⟩
  | .hbm, ⟨45, _⟩ => ⟨S_, .i32⟩
  | .hbm, ⟨46, _⟩ => ⟨S690000, .i32⟩
  | .hbm, ⟨47, _⟩ => ⟨S690000, .i1⟩
  | .hbm, ⟨48, _⟩ => ⟨S_, .i32⟩
  | .hbm, ⟨49, _⟩ => ⟨S690000, .i32⟩
  | .hbm, ⟨50, _⟩ => ⟨S690000, .i32⟩
  | .hbm, ⟨51, _⟩ => ⟨S690000, .i32⟩
  | .hbm, ⟨52, _⟩ => ⟨S690000x1, .i32⟩
  | .hbm, ⟨53, _⟩ => ⟨S690000x128, .f32⟩
  | .hbm, ⟨54, _⟩ => ⟨S690000x1, .f32⟩
  | .hbm, ⟨55, _⟩ => ⟨S690000x128, .f32⟩
  | .hbm, ⟨56, _⟩ => ⟨S690000x128, .f32⟩
  | .hbm, ⟨57, _⟩ => ⟨S_, .f32⟩
  | .hbm, ⟨58, _⟩ => ⟨S50000x128, .f32⟩
  | .hbm, ⟨59, _⟩ => ⟨S690000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S50000x128_S128x128_S50000x128_1_0_0_1_n_n_wf : DotDims.WF S50000x128 S128x128 S50000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf

class Facts : Prop extends Facts₀ where

variable [Facts]
-- ==== Proof.LibFiniteIsReal.lean ====
import Idealize.ShloMosaic.Lib.ReduceAll
import Idealize.ShloMosaic.Lib.ValueIdx
import Idealize.ShloMosaic.PureOps.Ideal

/-
  "Every entry is finite" read over the extended reals (any shape).

  A host predicate of the form  all(|x| < +∞)  — the absolute value taken entrywise, compared strictly with the splat
  of the word 0x7F800000, the comparisons folded by `and` from `true` into a scalar — holds exactly when no entry of
  x is +∞ or −∞, so when it holds every entry of x is (the image of) a real number:

  * word_inf                 — the word 0x7F800000 denotes +∞;
  * real_of_abs_lt_inf       — max a (−a) < +∞ makes a a real number;
  * all_real_of_all_finite   — the predicate, for an array of any shape reduced over any axes to a scalar, gives a real
                               number at every index.
-/

noncomputable section

namespace Cert.LibFiniteIsReal

open Idealize.ShloMosaic

/-- The word 0x7F800000 denotes +∞. -/
theorem word_inf : Ideal.ofBits .f32 0x7F800000#32 = (⊤ : EReal) := by
  simp [Ideal.ofBits, Ideal.ieee]

/-- An extended real whose absolute value is strictly below +∞ is a real number. -/
theorem real_of_abs_lt_inf (a : EReal)
    (h : Ideal.cmp .olt (max a (-a)) (Ideal.ofBits .f32 0x7F800000#32) = 1#1) : ∃ r : ℝ, a = (r : EReal) := by
  rw [word_inf] at h
  induction a using EReal.rec with
  | bot => simp [Ideal.cmp] at h
  | coe r => exact ⟨r, rfl⟩
  | top => simp [Ideal.cmp] at h

/-- The scalar shape has one index. -/
instance : Subsingleton (⟨0, ![]⟩ : Shape).Idx := ⟨fun _ _ => funext fun d => d.elim0⟩

/-- If all(|x| < +∞) holds of an array x of any shape, every entry of x is a real number. -/
theorem all_real_of_all_finite {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (h0 : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr h0 ValueIdx.ix0 = 1#1) :
    ∀ j, ∃ r : ℝ, x j = (r : EReal) :=
  fun j => real_of_abs_lt_inf _ (Host.reduce_andi_all _ _ hr h0 _ e j)

end Cert.LibFiniteIsReal

end
-- ==== Proof.LibRealSums.lean ====
/-
  Finite sums of real numbers inside the extended reals, and the one algebraic law of this certificate.

  A graph convolution aggregates, for a destination row, the rows of its incoming edges. It can be done in two
  orders: scale each gathered input row by its source weight, add the rows up, and only then multiply the sum
  by the weight matrix and by the destination weight; or multiply every gathered row by the matrix first, scale it
  by the product of the two weights, and add the results up. On the extended reals the two orders agree as soon as
  every number involved is a real number: the law is distributivity and an exchange of two finite sums, both of
  which fail at the infinities and hold on the reals.
-/
import Idealize.ShloMosaic.PureOps.Ideal

noncomputable section

open scoped BigOperators

namespace Cert.Lib.RealSums

/-- An extended real that is a real number (neither infinity). -/
def IsReal (x : EReal) : Prop := ∃ r : ℝ, x = (r : EReal)

theorem isReal_coe (r : ℝ) : IsReal (r : EReal) := ⟨r, rfl⟩

theorem isReal_zero : IsReal (0 : EReal) := ⟨0, by simp⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

/-- The coercion of the reals into the extended reals commutes with finite sums. -/
theorem coe_sum {ι : Type*} (S : Finset ι) (f : ι → ℝ) :
    ((∑ i ∈ S, f i : ℝ) : EReal) = ∑ i ∈ S, (f i : EReal) := by
  classical
  refine Finset.induction_on S (by simp) ?_
  intro a S ha ih
  rw [Finset.sum_insert ha, Finset.sum_insert ha, EReal.coe_add, ih]

/-- A finite sum of real numbers is a real number. -/
theorem isReal_sum {ι : Type*} (S : Finset ι) (f : ι → EReal) (h : ∀ i ∈ S, IsReal (f i)) :
    IsReal (∑ i ∈ S, f i) := by
  classical
  revert h
  refine Finset.induction_on S (fun _ => by simpa using isReal_zero) ?_
  intro a S ha ih h
  rw [Finset.sum_insert ha]
  exact (h a (Finset.mem_insert_self a S)).add (ih fun i hi => h i (Finset.mem_insert_of_mem hi))

/-- THE LAW. `L` is the set of edges landing on one destination row; `a e k` is entry `k` of the input row edge `e`
    gathers, `s e` that row's source weight, `w k` one column of the weight matrix, `t` the destination's weight and
    `t' e` the destination weight as edge `e` reads it (the same number for an edge in `L`). Aggregating the scaled
    rows and then applying the matrix and the destination weight is aggregating the rows with the matrix already
    applied, each scaled by the product of its two weights — for real numbers. -/
theorem aggregate_then_project {E K : Type*} [Fintype K] (L : Finset E) (a : E → K → EReal) (s : E → EReal)
    (w : K → EReal) (t : EReal) (t' : E → EReal)
    (ha : ∀ e k, IsReal (a e k)) (hs : ∀ e, IsReal (s e)) (hw : ∀ k, IsReal (w k)) (ht : IsReal t)
    (ht' : ∀ e ∈ L, t' e = t) :
    (∑ k, (∑ e ∈ L, a e k * s e) * w k) * t = ∑ e ∈ L, (∑ k, a e k * w k) * (s e * t' e) := by
  choose a' ha' using ha
  choose s' hs' using hs
  choose w' hw' using hw
  obtain ⟨t0, rfl⟩ := ht
  have h1 : ∑ e ∈ L, (∑ k, a e k * w k) * (s e * t' e) = ∑ e ∈ L, (∑ k, a e k * w k) * (s e * (t0 : EReal)) :=
    Finset.sum_congr rfl fun e he => by rw [ht' e he]
  rw [h1]
  simp only [ha', hs', hw', ← EReal.coe_mul, ← coe_sum]
  refine congrArg _ ?_
  simp only [Finset.sum_mul]
  rw [Finset.sum_comm]
  exact Finset.sum_congr rfl fun e _ => Finset.sum_congr rfl fun k _ => by ring

end Cert.Lib.RealSums

end
-- ==== Proof.Finite.lean ====
/-
  The precondition, read: `finite_inputs` says that no entry of the feature matrix x, of the weight matrix W or of
  the bias b is an infinity; so every entry of x and of W is a real number, which is what the exchange of the
  aggregation with the matrix product needs (the bias is only added, on both sides, and its finiteness is not used).
-/
import proofs.«155807_j27530740368060_2_alg».proof.Pre_finite_inputs
import proofs.«155807_j27530740368060_2_alg».proof.Proof.LibFiniteIsReal
import proofs.«155807_j27530740368060_2_alg».proof.Proof.LibRealSums

noncomputable section

namespace Cert.Proof.Finite

open Idealize.ShloMosaic Cert.Lib.RealSums

variable [Cert.Pre_finite_inputs.Facts]

/-- Under `finite_inputs` every entry of x (argument 0) and of W (argument 2) is a real number. -/
theorem inputs_real (a0 : FVec Ideal Cert.Pre_finite_inputs.S50000x128 .f32) (a1 : IVec Cert.Pre_finite_inputs.S2x640000 32)
    (a2 : FVec Ideal Cert.Pre_finite_inputs.S128x128 .f32) (a3 : FVec Ideal Cert.Pre_finite_inputs.S128 .f32)
    (h : Cert.Pre_finite_inputs.fn (F := Ideal) a0 a1 a2 a3 = fun _ => 1#1) :
    (∀ j, IsReal (a0 j)) ∧ (∀ j, IsReal (a2 j)) := by
  have h0 := congrFun h ValueIdx.ix0
  dsimp only [Cert.Pre_finite_inputs.fn] at h0
  obtain ⟨h38, _⟩ := IntOp.andi_eq_one.1 h0
  obtain ⟨h3, h7⟩ := IntOp.andi_eq_one.1 h38
  exact ⟨Cert.LibFiniteIsReal.all_real_of_all_finite a0 _ _ _ h3, Cert.LibFiniteIsReal.all_real_of_all_finite a2 _ _ _ h7⟩

end Cert.Proof.Finite

end
-- ==== Proof.LibRowScatterGather.lean ====
/-
  Rows scattered and gathered by an index column, read at an index.

  What `segment_sum(rows, ids)` and `table[ids]` lower to when `ids` is an integer column `[E, 1]`:
  • a scatter that adds row `r` of an `[E, M]` array of updates into row `ids[r, 0]` of an `[N, M]` operand — the
    index read as a signed integer and NOT clamped, a row whose index falls outside `[0, N)` dropped;
  • a gather that reads, for each `r`, row `ids[r, 0]` of an `[N, M]` table (or entry `ids[r, 0]` of a length-`N`
    vector) — the index read signed and clamped into `[0, N − 1]`.
  At the ideal instance the accumulating scatter is the exact sum, so entry `(d, k)` of its result is the operand's
  entry plus the sum, over the rows `r` whose index is `d`, of the updates' entries `(r, k)`.
  Everything is generic in the extents `N`, `M`, `E` and in the index width.
-/
import Idealize.ShloMosaic.PureOps.Ideal
import Idealize.ShloMosaic.Lib.ValueIdx

noncomputable section

open scoped BigOperators

namespace Cert.Lib.RowScatterGather

open Idealize.ShloMosaic Idealize.ShloMosaic.ValueIdx

/-- The place `[r, 0]` of an index column `[E, 1]`. -/
abbrev startAt {e : Nat} (r : Fin e) : (⟨2, ![e, 1]⟩ : Shape).Idx := ix2 r (0 : Fin 1)

/-- A signed index clamped into `[0, N − 1]`: the row a gather reads. -/
abbrev clampRow {w : Nat} (n : Nat) (hn : 0 < n) (v : BitVec w) : Fin n := ⟨min v.toInt.toNat (n - 1), by omega⟩

/-! ## The scatter of rows -/

section Scatter
variable {n m e w : Nat}

/-- The dimension numbers of "row `r` of the updates goes to row `ids[r, 0]` of the operand". -/
abbrev rowScatter (n m e : Nat) (wf : ScatterDims.WF ⟨2, ![n, m]⟩ ⟨2, ![e, 1]⟩ ⟨2, ![e, m]⟩ [1] [0] [0] 1) :
    ScatterDims ⟨2, ![n, m]⟩ ⟨2, ![e, 1]⟩ ⟨2, ![e, m]⟩ where
  updateWindowDims := [1]
  insertedWindowDims := [0]
  scatterDimsToOperandDims := [0]
  indexVectorDim := 1
  wf := wf

variable (wf : ScatterDims.WF ⟨2, ![n, m]⟩ ⟨2, ![e, 1]⟩ ⟨2, ![e, m]⟩ [1] [0] [0] 1)

theorem rowScatter_start0 (idx : IVec ⟨2, ![e, 1]⟩ w) (r : Fin e) (k : Fin m) :
    (rowScatter n m e wf).start (ix2 r k) idx 0 = (idx (startAt r)).toInt := by
  unfold ScatterDims.start
  rw [dif_pos (show (0 : Fin 2) ∈ (rowScatter n m e wf).scatterDimsToOperandDims from List.mem_singleton.mpr rfl)]
  have hsi : (rowScatter n m e wf).siIdx (ix2 r k) ⟨List.idxOf (0 : Fin 2) (rowScatter n m e wf).scatterDimsToOperandDims,
      List.idxOf_lt_length_iff.2 (List.mem_singleton.mpr rfl)⟩ = startAt r := by
    funext b; refine Fin.ext ?_
    match b with
    | ⟨0, _⟩ => rfl
    | ⟨1, _⟩ => rfl
  rw [hsi]

theorem rowScatter_start1 (idx : IVec ⟨2, ![e, 1]⟩ w) (r : Fin e) (k : Fin m) :
    (rowScatter n m e wf).start (ix2 r k) idx 1 = 0 := by
  unfold ScatterDims.start
  rw [dif_neg (show (1 : Fin 2) ∉ [(0 : Fin 2)] from by decide)]

theorem rowScatter_window0 (r : Fin e) (k : Fin m) : (rowScatter n m e wf).window (ix2 r k) 0 = 0 := by
  unfold ScatterDims.window
  rw [dif_neg (show (0 : Fin 2) ∉ (rowScatter n m e wf).sKept from
    (by decide : (0 : Fin 2) ∉ (List.finRange 2).filter (fun a => a ∉ [(0 : Fin 2)])))]

theorem rowScatter_window1 (r : Fin e) (k : Fin m) : (rowScatter n m e wf).window (ix2 r k) 1 = k.val := by
  unfold ScatterDims.window
  rw [dif_pos (show (1 : Fin 2) ∈ (rowScatter n m e wf).sKept from
    (by decide : (1 : Fin 2) ∈ (List.finRange 2).filter (fun a => a ∉ [(0 : Fin 2)])))]
  rfl

/-- WHERE AN UPDATE LANDS: entry `(r, k)` of the updates lands on entry `i` of the operand exactly when the index
    of row `r`, read signed, is `i`'s row and `k` is `i`'s column. -/
theorem rowScatter_lands (idx : IVec ⟨2, ![e, 1]⟩ w) (r : Fin e) (k : Fin m) (i : (⟨2, ![n, m]⟩ : Shape).Idx) :
    (rowScatter n m e wf).resultIdx? (ix2 r k) idx = some i ↔
      (idx (startAt r)).toInt = ((i 0).val : ℤ) ∧ k.val = (i 1).val := by
  have hs0 := rowScatter_start0 wf idx r k
  have hs1 := rowScatter_start1 wf idx r k
  have hw0 := rowScatter_window0 wf r k
  have hw1 := rowScatter_window1 wf r k
  have hi0 : (i 0).val < n := idx2_lt0 i
  have hi1 : (i 1).val < m := idx2_lt1 i
  unfold ScatterDims.resultIdx?
  split
  · rename_i h
    rw [Option.some.injEq]
    constructor
    · intro hi
      have h0 : ((rowScatter n m e wf).start (ix2 r k) idx 0 + ((rowScatter n m e wf).window (ix2 r k) 0 : ℕ)).toNat = (i 0).val :=
        congrArg (fun f : (⟨2, ![n, m]⟩ : Shape).Idx => (f 0).val) hi
      have h1 : ((rowScatter n m e wf).start (ix2 r k) idx 1 + ((rowScatter n m e wf).window (ix2 r k) 1 : ℕ)).toNat = (i 1).val :=
        congrArg (fun f : (⟨2, ![n, m]⟩ : Shape).Idx => (f 1).val) hi
      have hn0 := (h 0).1
      rw [hs0, hw0] at h0 hn0
      rw [hs1, hw1] at h1
      constructor <;> omega
    · rintro ⟨hA, hB⟩
      funext a; refine Fin.ext ?_
      match a with
      | ⟨0, _⟩ =>
        show ((rowScatter n m e wf).start (ix2 r k) idx 0 + ((rowScatter n m e wf).window (ix2 r k) 0 : ℕ)).toNat = (i 0).val
        rw [hs0, hw0, hA]; omega
      | ⟨1, _⟩ =>
        show ((rowScatter n m e wf).start (ix2 r k) idx 1 + ((rowScatter n m e wf).window (ix2 r k) 1 : ℕ)).toNat = (i 1).val
        rw [hs1, hw1]; omega
  · rename_i h
    constructor
    · intro hn; cases hn
    · rintro ⟨hA, hB⟩
      refine absurd (fun a => ?_) h
      match a with
      | ⟨0, _⟩ =>
        show 0 ≤ (rowScatter n m e wf).start (ix2 r k) idx 0 + ((rowScatter n m e wf).window (ix2 r k) 0 : ℕ) ∧
          (rowScatter n m e wf).start (ix2 r k) idx 0 + ((rowScatter n m e wf).window (ix2 r k) 0 : ℕ) < (n : ℤ)
        rw [hs0, hw0, hA]; omega
      | ⟨1, _⟩ =>
        show 0 ≤ (rowScatter n m e wf).start (ix2 r k) idx 1 + ((rowScatter n m e wf).window (ix2 r k) 1 : ℕ) ∧
          (rowScatter n m e wf).start (ix2 r k) idx 1 + ((rowScatter n m e wf).window (ix2 r k) 1 : ℕ) < (m : ℤ)
        rw [hs1, hw1]; omega

/-- THE ACCUMULATING SCATTER AT `(d, k)`, at the ideal instance: the operand's entry plus the sum, over the rows whose
    index is `d`, of the updates' entries in column `k`. -/
theorem rowScatterAdd_apply (x : (⟨2, ![n, m]⟩ : Shape).Idx → EReal) (idx : IVec ⟨2, ![e, 1]⟩ w)
    (upd : (⟨2, ![e, m]⟩ : Shape).Idx → EReal) (d : Fin n) (k : Fin m) :
    Ideal.hostScatterAdd (rowScatter n m e wf) x idx upd (ix2 d k)
      = x (ix2 d k) + ∑ r ∈ Finset.univ.filter (fun r : Fin e => (idx (startAt r)).toInt = (d.val : ℤ)), upd (ix2 r k) := by
  unfold Ideal.hostScatterAdd
  refine congrArg (x (ix2 d k) + ·) ?_
  rw [Finset.sum_filter, Finset.sum_filter, sum_idx2]
  refine Finset.sum_congr rfl fun r _ => ?_
  have hP : ∀ k' : Fin m, ((rowScatter n m e wf).resultIdx? (ix2 r k') idx = some (ix2 d k)) ↔
      ((idx (startAt r)).toInt = (d.val : ℤ) ∧ k' = k) := fun k' =>
    (rowScatter_lands wf idx r k' (ix2 d k)).trans (and_congr Iff.rfl Fin.ext_iff.symm)
  simp only [hP]
  by_cases hA : (idx (startAt r)).toInt = (d.val : ℤ)
  · simp only [hA, true_and, if_true]
    rw [Finset.sum_ite_eq' Finset.univ k]
    simp
  · simp only [hA, false_and, if_false, Finset.sum_const_zero]

end Scatter

/-! ## The two gathers -/

section Gather
variable {α : Type} {n m e w : Nat}

/-- The dimension numbers of "result row `r` is row `ids[r, 0]` of the table". -/
abbrev rowGather (n m e : Nat) (wf : GatherDims.WF ⟨2, ![n, m]⟩ ⟨2, ![e, 1]⟩ ⟨2, ![e, m]⟩ [1] [0] [] [0] [] 1 ![1, m]) :
    GatherDims ⟨2, ![n, m]⟩ ⟨2, ![e, 1]⟩ ⟨2, ![e, m]⟩ where
  offsetDims := [1]
  collapsedSliceDims := [0]
  operandBatchingDims := []
  startIndicesBatchingDims := []
  startIndexMap := [0]
  indexVectorDim := 1
  sliceSizes := ![1, m]
  wf := wf

/-- THE ROW GATHER AT `(r, k)`: the table's entry `k` in the row the index of `r` names, clamped. -/
theorem rowGather_apply (hn : 0 < n) (wf : GatherDims.WF ⟨2, ![n, m]⟩ ⟨2, ![e, 1]⟩ ⟨2, ![e, m]⟩ [1] [0] [] [0] [] 1 ![1, m])
    (x : (⟨2, ![n, m]⟩ : Shape).Idx → α) (idx : IVec ⟨2, ![e, 1]⟩ w) (r : Fin e) (k : Fin m) :
    Host.gather (rowGather n m e wf) x idx (ix2 r k) = x (ix2 (clampRow n hn (idx (startAt r))) k) := by
  unfold Host.gather
  congr 1
  funext a
  refine Fin.ext ?_
  match a with
  | ⟨0, _⟩ =>
    show (rowGather n m e wf).start (ix2 r k) idx 0 + (rowGather n m e wf).batchCoord (ix2 r k) 0 + (rowGather n m e wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather n m e wf).startIndexMap from List.mem_singleton.mpr rfl)]
    have hsi : (rowGather n m e wf).siIdx (ix2 r k) ⟨List.idxOf (0 : Fin 2) (rowGather n m e wf).startIndexMap,
        List.idxOf_lt_length_iff.2 (List.mem_singleton.mpr rfl)⟩ = startAt r := by
      funext b; refine Fin.ext ?_
      match b with
      | ⟨0, _⟩ => rfl
      | ⟨1, _⟩ => rfl
    rw [hsi]
    rfl
  | ⟨1, _⟩ =>
    show (rowGather n m e wf).start (ix2 r k) idx 1 + (rowGather n m e wf).batchCoord (ix2 r k) 1 + (rowGather n m e wf).offCoord (ix2 r k) 1 = k.val
    rw [GatherDims.batchCoord_eq_zero _ _ _ List.not_mem_nil]
    unfold GatherDims.start
    rw [dif_neg (show (1 : Fin 2) ∉ [(0 : Fin 2)] from by decide)]
    unfold GatherDims.offCoord
    rw [dif_pos (show (1 : Fin 2) ∈ (rowGather n m e wf).sKept from
      (by decide : (1 : Fin 2) ∈ (List.finRange 2).filter (fun a => a ∉ [(0 : Fin 2)] ++ [])))]
    simp only [Nat.zero_add]
    rfl

/-- The dimension numbers of "result entry `r` is entry `ids[r, 0]` of the vector". -/
abbrev elemGather (n e : Nat) (wf : GatherDims.WF ⟨1, ![n]⟩ ⟨2, ![e, 1]⟩ ⟨1, ![e]⟩ [] [0] [] [0] [] 1 ![1]) :
    GatherDims ⟨1, ![n]⟩ ⟨2, ![e, 1]⟩ ⟨1, ![e]⟩ where
  offsetDims := []
  collapsedSliceDims := [0]
  operandBatchingDims := []
  startIndicesBatchingDims := []
  startIndexMap := [0]
  indexVectorDim := 1
  sliceSizes := ![1]
  wf := wf

/-- THE ENTRY GATHER AT `r`: the vector's entry the index of `r` names, clamped. -/
theorem elemGather_apply (hn : 0 < n) (wf : GatherDims.WF ⟨1, ![n]⟩ ⟨2, ![e, 1]⟩ ⟨1, ![e]⟩ [] [0] [] [0] [] 1 ![1])
    (x : (⟨1, ![n]⟩ : Shape).Idx → α) (idx : IVec ⟨2, ![e, 1]⟩ w) (r : Fin e) :
    Host.gather (elemGather n e wf) x idx (ix1 r) = x (ix1 (clampRow n hn (idx (startAt r)))) := by
  unfold Host.gather
  congr 1
  funext a
  obtain rfl : a = 0 := Subsingleton.elim _ _
  refine Fin.ext ?_
  show (elemGather n e wf).start (ix1 r) idx 0 + (elemGather n e wf).batchCoord (ix1 r) 0 + (elemGather n e wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemGather n e wf).startIndexMap from List.mem_singleton.mpr rfl)]
  have hsi : (elemGather n e wf).siIdx (ix1 r) ⟨List.idxOf (0 : Fin 1) (elemGather n e wf).startIndexMap,
      List.idxOf_lt_length_iff.2 (List.mem_singleton.mpr rfl)⟩ = startAt r := by
    funext b; refine Fin.ext ?_
    match b with
    | ⟨0, _⟩ => rfl
    | ⟨1, _⟩ => rfl
  rw [hsi]
  rfl

end Gather

end Cert.Lib.RowScatterGather

end
-- ==== Proof.Edges.lean ====
/-
  The edges, as the two programs see them.

  Both programs turn the integer edge list (with one self-loop per node appended) into index columns of 690000
  entries. Named here, over the stages of the reference's run:
  * the node an edge's source index names when a table is gathered through it — the index with negatives wrapped
    (jnp's indexing), read signed and clamped into the node range (the gather's own rule);
  * the node its destination index names in the same way;
  * the set of edges that LAND on a node d when rows are scatter-added by the raw destination index: those whose
    index, read signed, is exactly d (an out-of-range index lands nowhere);
  * the weight dinv of a node.
-/
import proofs.«155807_j27530740368060_2_alg».proof.Proof.ReferenceReadPatched
import proofs.«155807_j27530740368060_2_alg».proof.Proof.LibRowScatterGather

noncomputable section

namespace Cert.Proof.Edges

open Idealize.ShloMosaic Idealize.ShloMosaic.ValueIdx Cert.ReferenceIdeal Cert.ReferenceIdeal.Gen Cert.ReferenceIdeal.ReadP
open Cert.Lib.RowScatterGather

/-- The integer edge list, as an array. -/
abbrev EdgeList := (⟨S2x640000, .i32⟩ : BufTy).Contents (Elt Ideal)

/-- The node whose row edge `r` gathers as its SOURCE. -/
abbrev srcRow (a1 : EdgeList) (r : Fin 690000) : Fin 50000 :=
  clampRow 50000 (by decide) (val_main_v20 (F := Ideal) a1 (startAt r))

/-- The node whose weight edge `r` gathers as its DESTINATION's. -/
abbrev dstRow (a1 : EdgeList) (r : Fin 690000) : Fin 50000 :=
  clampRow 50000 (by decide) (val_main_v27 (F := Ideal) a1 (startAt r))

/-- The edges whose scattered row lands on node `d`. -/
abbrev landing (a1 : EdgeList) (d : Fin 50000) : Finset (Fin 690000) :=
  Finset.univ.filter (fun r : Fin 690000 => (val_main_v9 (F := Ideal) a1 (startAt r)).toInt = (d.val : ℤ))

/-- The normalisation weight of node `d`. -/
abbrev dinv (a1 : EdgeList) (d : Fin 50000) : EReal := val_main_v14 (F := Ideal) a1 (ix1 d)

/-- The two normalised source columns of the reference are one array … -/
theorem src_columns_eq (a1 : EdgeList) : val_main_v36 (F := Ideal) a1 = val_main_v20 (F := Ideal) a1 := rfl
/-- … and so are its two raw destination columns. -/
theorem dst_columns_eq (a1 : EdgeList) : val_main_v42 (F := Ideal) a1 = val_main_v9 (F := Ideal) a1 := rfl

end Cert.Proof.Edges

end
-- ==== Proof.ReferenceValue.lean ====
/-
  The reference's result at an index.

  The reference multiplies the whole feature matrix by W first (h = x · W), gathers row src(e) of h for every edge e,
  scales it by dinv[src(e)] · dinv[dst(e)], scatter-adds the scaled rows by destination, adds the bias and clamps at
  zero. Read at node d and column c, stage by stage:
      max ((0 + ∑ over the edges e landing on d of (∑ k, x[src(e), k] · W[k, c]) · (dinv[src(e)] · dinv[dst(e)])) + b[c], 0).
-/
import proofs.«155807_j27530740368060_2_alg».proof.Proof.Edges

noncomputable section

open scoped BigOperators

namespace Cert.Proof.ReferenceValue

open Idealize.ShloMosaic Idealize.ShloMosaic.ValueIdx Cert.ReferenceIdeal Cert.ReferenceIdeal.Gen Cert.ReferenceIdeal.ReadP
open Cert.Lib.RowScatterGather Cert.Proof.Edges

variable (x0 : (⟨S50000x128, .f32⟩ : BufTy).Contents (Elt Ideal)) (a1 : EdgeList)
  (x2 : (⟨S128x128, .f32⟩ : BufTy).Contents (Elt Ideal)) (x3 : (⟨S128, .f32⟩ : BufTy).Contents (Elt Ideal))

/-! ## The stages that read through an index column, as the library's scatter and gathers -/

/-- The gathered product rows: rows of x · W through the normalised source column. -/
theorem gathered_stage : val_main_v37 (F := Ideal) x0 a1 x2
    = Host.gather (rowGather 50000 128 690000 Facts₀.gather_S50000x128_S690000x1_S690000x128_1_0_n_n_0_1_1128_wf)
        (val_main_v30 (F := Ideal) x0 x2) (val_main_v20 (F := Ideal) a1) := by
  unfold val_main_v37
  rfl

/-- dinv through the normalised source column … -/
theorem srcWeight_stage : val_main_v21 (F := Ideal) a1
    = Host.gather (elemGather 50000 690000 Facts₀.gather_S50000_S690000x1_S690000_n_0_n_n_0_1_1_wf)
        (val_main_v14 (F := Ideal) a1) (val_main_v20 (F := Ideal) a1) := by
  unfold val_main_v21
  rfl

/-- … and through the normalised destination column. -/
theorem dstWeight_stage : val_main_v28 (F := Ideal) a1
    = Host.gather (elemGather 50000 690000 Facts₀.gather_S50000_S690000x1_S690000_n_0_n_n_0_1_1_wf)
        (val_main_v14 (F := Ideal) a1) (val_main_v27 (F := Ideal) a1) := by
  unfold val_main_v28
  rfl

/-- The aggregation: the scaled product rows scatter-added by the raw destination column … -/
theorem aggregate_stage : val_main_v43 (F := Ideal) x0 a1 x2
    = Host.scatterAdd (F := Ideal) (φ := .f32) scatter_S50000x128_S690000x1_S690000x128_1_0_0_1 (val_main_v41 (F := Ideal))
        (val_main_v9 (F := Ideal) a1) (val_main_v40 (F := Ideal) x0 a1 x2) := by
  unfold val_main_v43
  rfl

/-- … which at the ideal instance is the exact sum, over the row scatter's dimension numbers. -/
theorem scatter_rows_eq (x : S50000x128.Idx → EReal) (idx : IVec S690000x1 32) (upd : S690000x128.Idx → EReal) :
    Host.scatterAdd (F := Ideal) (φ := .f32) scatter_S50000x128_S690000x1_S690000x128_1_0_0_1 x idx upd
      = Ideal.hostScatterAdd (rowScatter 50000 128 690000 Facts₀.scatter_S50000x128_S690000x1_S690000x128_1_0_0_1_wf) x idx upd := by
  unfold Host.scatterAdd
  rw [Ideal.hostScatterAdd_def]
  rfl

/-! ## At an index -/

/-- Row src(e) of x · W at column c. -/
theorem gatheredProduct_apply (r : Fin 690000) (c : Fin 128) :
    val_main_v37 (F := Ideal) x0 a1 x2 (ix2 r c) = ∑ k : Fin 128, x0 (ix2 (srcRow a1 r) k) * x2 (ix2 k c) := by
  refine (congrFun (gathered_stage x0 a1 x2) (ix2 r c)).trans ?_
  refine (rowGather_apply (by decide) _ _ _ r c).trans ?_
  refine (val_main_v30_apply x0 x2 _).trans (Finset.sum_congr rfl fun k _ => ?_)
  have el : lidx_main_v30 (ix2 (srcRow a1 r) c) k = ix2 (srcRow a1 r) k := by
    funext a; match a with | ⟨0, _⟩ => rfl | ⟨1, _⟩ => rfl
  have er : ridx_main_v30 (ix2 (srcRow a1 r) c) k = ix2 k c := by
    funext a; match a with | ⟨0, _⟩ => rfl | ⟨1, _⟩ => rfl
  rw [el, er]

/-- The edge's scale, broadcast along its row: dinv[src(e)] · dinv[dst(e)]. -/
theorem edgeScale_apply (r : Fin 690000) (c : Fin 128) :
    val_main_v39 (F := Ideal) a1 (ix2 r c) = dinv a1 (srcRow a1 r) * dinv a1 (dstRow a1 r) := by
  have he : idx_main_v38 (idx_main_v39 (ix2 r c)) = ix1 r := by
    funext a; match a with | ⟨0, _⟩ => rfl
  have h21 : val_main_v21 (F := Ideal) a1 (ix1 r) = dinv a1 (srcRow a1 r) :=
    (congrFun (srcWeight_stage a1) (ix1 r)).trans (elemGather_apply (by decide) _ _ _ r)
  have h28 : val_main_v28 (F := Ideal) a1 (ix1 r) = dinv a1 (dstRow a1 r) :=
    (congrFun (dstWeight_stage a1) (ix1 r)).trans (elemGather_apply (by decide) _ _ _ r)
  refine (val_main_v39_apply a1 _).trans ((val_main_v38_apply a1 _).trans ?_)
  rw [he]
  refine (val_main_v29_apply a1 _).trans ?_
  rw [h21, h28]
  rfl

/-- The aggregated rows at (d, c): the zero the scatter starts from plus the scaled product rows landing on d. -/
theorem aggregate_apply (d : Fin 50000) (c : Fin 128) :
    val_main_v43 (F := Ideal) x0 a1 x2 (ix2 d c)
      = Ideal.ofBits .f32 0x00000000#32 + ∑ r ∈ landing a1 d,
          (∑ k : Fin 128, x0 (ix2 (srcRow a1 r) k) * x2 (ix2 k c)) * (dinv a1 (srcRow a1 r) * dinv a1 (dstRow a1 r)) := by
  refine (congrFun ((aggregate_stage x0 a1 x2).trans (scatter_rows_eq _ _ _)) (ix2 d c)).trans ?_
  refine (rowScatterAdd_apply _ _ _ _ d c).trans ?_
  refine congrArg₂ (· + ·) ?_ (Finset.sum_congr rfl fun r _ => ?_)
  · rw [val_main_v41_apply, val_main_cst_8_apply, Ideal.ofBits_def]
  · refine (val_main_v40_apply x0 a1 x2 _).trans ?_
    rw [gatheredProduct_apply, edgeScale_apply]
    rfl

/-- THE REFERENCE'S RESULT AT (d, c). -/
theorem reference_apply (d : Fin 50000) (c : Fin 128) :
    val_main_v47 (F := Ideal) x0 a1 x2 x3 (ix2 d c)
      = max ((Ideal.ofBits .f32 0x00000000#32 + ∑ r ∈ landing a1 d,
            (∑ k : Fin 128, x0 (ix2 (srcRow a1 r) k) * x2 (ix2 k c)) * (dinv a1 (srcRow a1 r) * dinv a1 (dstRow a1 r)))
          + x3 (ix1 c)) (Ideal.ofBits .f32 0x00000000#32) := by
  have hb : idx_main_v44 (idx_main_v45 (ix2 d c)) = ix1 c := by
    funext a; match a with | ⟨0, _⟩ => rfl
  refine (val_main_v47_apply x0 a1 x2 x3 _).trans ?_
  rw [val_main_v46_apply, val_main_call1_v0_apply, val_main_call1_cst_apply, val_main_v45_apply,
    val_main_v44_apply, aggregate_apply, hb, Ideal.ofBits_def]
  rfl

end Cert.Proof.ReferenceValue

end
-- ==== Proof.BodyValue.lean ====
/-
  The kernel body's arithmetic at an index, at the ideal instance.

  One grid step holds a block S of 5000 aggregated rows, the whole weight matrix W, the block's column of
  destination weights dinv ([5000, 1]) and the bias row b ([1, 128]), and stores
      max ((S · W) ∘ dinv + b, 0).
  At the ideal instance the two changes of float format before the product are the identity and the product into a
  zero accumulator is the plain sum over the contracted coordinate, so entry (p, q) of the stored block is
      max ((∑ k, S[p, k] · W[k, q]) · dinv[p, 0] + b[0, q], 0).
-/
import proofs.«155807_j27530740368060_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.Proof.BodyValue

open Idealize.ShloMosaic Idealize.ShloMosaic.ValueIdx Cert.KernelIdeal Cert.KernelIdeal.Gen

/-- The product's dimension numbers: [5000, 128] × [128, 128], contracting the left's columns with the right's rows. -/
abbrev blockDot := dot_S5000x128_S128x128_S5000x128_1_0_0_1_n_n

theorem lhs_row (i : S5000x128.Idx) (q : blockDot.contr.Idx) : (blockDot.lhsIdx i q 0).val = (i 0).val := by
  unfold DotDims.lhsIdx
  rw [dif_neg (show ¬(0 : Fin S5000x128.rank) ∈ blockDot.lhsBatch by decide),
    dif_pos (show (0 : Fin S5000x128.rank) ∈ blockDot.lhsNonContracting by decide)]
  rfl
theorem lhs_col (i : S5000x128.Idx) (q : blockDot.contr.Idx) : (blockDot.lhsIdx i q 1).val = (q ⟨0, by decide⟩).val :=
  blockDot.lhsIdx_val_of_single rfl i q
theorem rhs_row (i : S5000x128.Idx) (q : blockDot.contr.Idx) : (blockDot.rhsIdx i q 0).val = (q ⟨0, by decide⟩).val :=
  blockDot.rhsIdx_val_of_single rfl i q
theorem rhs_col (i : S5000x128.Idx) (q : blockDot.contr.Idx) : (blockDot.rhsIdx i q 1).val = (i 1).val := by
  unfold DotDims.rhsIdx
  rw [dif_neg (show ¬(1 : Fin S128x128.rank) ∈ blockDot.rhsBatch by decide),
    dif_pos (show (1 : Fin S128x128.rank) ∈ blockDot.rhsNonContracting by decide)]
  rfl

/-- The block product into a zero accumulator, at (p, q): the sum over k of left[p, k] · right[k, q]. -/
theorem blockProduct_apply (l : FVec Ideal S5000x128 .bf16) (r : FVec Ideal S128x128 .bf16) (p : Fin 5000) (q : Fin 128) :
    matmul blockDot none l r (constant S5000x128 .f32 0x00000000#32) (ix2 p q) = ∑ k : Fin 128, l (ix2 p k) * r (ix2 k q) := by
  simp only [matmul]
  rw [Ideal.matmul_constant_zero_apply, ← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact lhs_row _ _
    | ⟨1, _⟩ => exact (lhs_col _ _).trans hk)
  have er : blockDot.rhsIdx (ix2 p q) ((contrEquiv1 blockDot 128 rfl rfl).symm k) = ix2 k q := funext fun a => Fin.ext (by
    match a with
    | ⟨0, _⟩ => exact (rhs_row _ _).trans hk
    | ⟨1, _⟩ => exact rhs_col _ _)
  rw [el, er]

/-- A column [5000, 1] broadcast along the rows of a [5000, 128] block reads its row's one entry. -/
theorem columnBroadcast_apply (v : FVec Ideal S5000x1 .f32) (p : Fin 5000) (q : Fin 128) :
    broadcastTo S5000x128 v broadcasts_S5000x1_S5000x128 (ix2 p q) = v (ix2 p (0 : Fin 1)) :=
  broadcastTo_apply v broadcasts_S5000x1_S5000x128 (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])

/-- A row [1, 128] broadcast down the rows of a [5000, 128] block reads its column's one entry. -/
theorem rowBroadcast_apply (v : FVec Ideal S1x128 .f32) (p : Fin 5000) (q : Fin 128) :
    broadcastTo S5000x128 v broadcasts_S1x128_S5000x128 (ix2 p q) = v (ix2 (0 : Fin 1) q) :=
  broadcastTo_apply v broadcasts_S1x128_S5000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- THE BODY'S STORED VALUE AT (p, q). -/
theorem body_apply (s : FVec Ideal S5000x128 .f32) (w : FVec Ideal S128x128 .f32) (dv : FVec Ideal S5000x1 .f32)
    (b : FVec Ideal S1x128 .f32) (p : Fin 5000) (q : Fin 128) :
    k0_pay1 (F := Ideal) s w dv b (ix2 p q)
      = max ((∑ k : Fin 128, s (ix2 p k) * w (ix2 k q)) * dv (ix2 p (0 : Fin 1)) + b (ix2 (0 : Fin 1) q))
          (Ideal.ofBits .f32 0x00000000#32) := by
  unfold k0_pay1
  simp only [shapeCast_self]
  show max ((matmul (F := Ideal) blockDot none (truncf (F := Ideal) .bf16 s bitsLt_bf16_f32) (truncf (F := Ideal) .bf16 w bitsLt_bf16_f32)
        (constant (F := Ideal) S5000x128 .f32 0x00000000#32) (ix2 p q))
      * (broadcastTo S5000x128 dv broadcasts_S5000x1_S5000x128 (ix2 p q))
      + (broadcastTo S5000x128 b broadcasts_S1x128_S5000x128 (ix2 p q))) (Ideal.ofBits .f32 0x00000000#32) = _
  rw [blockProduct_apply, columnBroadcast_apply, rowBroadcast_apply]
  rfl

end Cert.Proof.BodyValue

end
-- ==== Proof.KernelBlocks.lean ====
/-
  The kernel's result array as one function of the arrays its pallas_call finds.

  The grid has ten points; point t holds rows 5000·t … 5000·t + 4999 of the aggregated rows S and of the weight
  column, the whole weight matrix W and the whole bias row, and writes rows 5000·t … 5000·t + 4999 of the result. So
  row d of the result is computed at point d / 5000 from row d of S and of the column, and the ten blocks tile the
  result array. Entry (d, c) of the result is
      max ((∑ k, S[d, k] · W[k, c]) · column[d, 0] + row[0, c], 0).
  The block arithmetic is done once, for arbitrary arrays; the arrays the region finds enter only at the end.
-/
import proofs.«155807_j27530740368060_2_alg».proof.Proof.Gen.KernelIdeal.Value
import proofs.«155807_j27530740368060_2_alg».proof.Proof.BodyValue

noncomputable section

open scoped BigOperators

namespace Cert.Proof.KernelBlocks

open Idealize.ShloMosaic Idealize.ShloMosaic.ValueIdx Idealize.ShloMosaic.TcCoe Idealize.SL.Sem
open Cert.KernelIdeal Cert.KernelIdeal.Gen Cert.KernelIdeal.Value
open Idealize.ShloMosaic.Pipeline (Dat)
open Cert.Proof.BodyValue

theorem zero_offsets : (![0, 0] : Fin 2 → Nat) = fun _ => 0 := funext fun a => by fin_cases a <;> rfl

/-! ## Over arbitrary arrays -/

section Arrays

variable (S : S50000x128.Idx → EReal) (Wm : S128x128.Idx → EReal) (dv : S50000x1.Idx → EReal) (bv : S1x128.Idx → EReal)

/-- The result at node d, column q, of arrays S, W, column, row. -/
def outAtOf (d : Fin 50000) (q : Fin 128) : EReal :=
  max ((∑ k : Fin 128, S (ix2 d k) * Wm (ix2 k q)) * dv (ix2 d (0 : Fin 1)) + bv (ix2 (0 : Fin 1) q))
    (Ideal.ofBits .f32 0x00000000#32)

/-- The result array of arrays S, W, column, row. -/
def outOf : S50000x128.Idx → EReal :=
  fun i => outAtOf S Wm dv bv ⟨(i 0).val, idx2_lt0 i⟩ ⟨(i 1).val, idx2_lt1 i⟩

/-- The result array at an index whose coordinates are d and q. -/
theorem outOf_apply (i : S50000x128.Idx) (d : Fin 50000) (q : Fin 128) (h0 : (i 0).val = d.val) (h1 : (i 1).val = q.val) :
    outOf S Wm dv bv i = outAtOf S Wm dv bv d q := by
  have e0 : (⟨(i 0).val, idx2_lt0 i⟩ : Fin 50000) = d := Fin.ext h0
  have e1 : (⟨(i 1).val, idx2_lt1 i⟩ : Fin 128) = q := Fin.ext h1
  show outAtOf S Wm dv bv ⟨(i 0).val, idx2_lt0 i⟩ ⟨(i 1).val, idx2_lt1 i⟩ = _
  rw [e0, e1]

/-- The printed index maps over the ten points: the aggregated rows, the weight column and the result move together,
    one block of rows per point; the weight matrix and the bias row stay at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 10 := by
  have h : t.val < grid0.N := t.isLt
  rw [N_0] at h; exact h

/-- The array row that row p of point t's blocks is. -/
abbrev rowOf (t : Fin cfg0.N) (p : Fin 5000) : Fin 50000 := ⟨t.val * 5000 + p.val, by have := point_lt t; omega⟩

/-- Row p, column k of point t's block of a [50000, 128] array staged by window 0 is the array's row 5000·t + p. -/
theorem block_aggregate (t : Fin cfg0.N) (p : Fin 5000) (k : Fin 128) :
    ((cfg0.win 0).blk t).view.read (Elt Ideal) S (ix2 p k) = S (ix2 (rowOf t p) k) := by
  obtain ⟨e00, e01, -⟩ := index_maps t
  show S (((cfg0.win 0).blk t).view.emb (ix2 p k)) = S (ix2 (rowOf t p) k)
  refine congrArg S (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- Every point's block of the [128, 128] array staged by window 1 is the whole array. -/
theorem block_weights (t : Fin cfg0.N) (k : Fin 128) (q : Fin 128) :
    ((cfg0.win 1).blk t).view.read (Elt Ideal) Wm (ix2 k q) = Wm (ix2 k q) := by
  obtain ⟨-, -, e10, e11, -⟩ := index_maps t
  show Wm (((cfg0.win 1).blk t).view.emb (ix2 k q)) = Wm (ix2 k q)
  refine congrArg Wm (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- Row p of point t's block of the [50000, 1] column staged by window 2 is the column's row 5000·t + p. -/
theorem block_column (t : Fin cfg0.N) (p : Fin 5000) :
    ((cfg0.win 2).blk t).view.read (Elt Ideal) dv (ix2 p (0 : Fin 1)) = dv (ix2 (rowOf t p) (0 : Fin 1)) := by
  obtain ⟨-, -, -, -, e20, e21, -⟩ := index_maps t
  show dv (((cfg0.win 2).blk t).view.emb (ix2 p (0 : Fin 1))) = dv (ix2 (rowOf t p) (0 : Fin 1))
  refine congrArg dv (funext fun a => Fin.ext ?_)
  match a with
  | ⟨0, _⟩ => show win0_2.index t (0 : Fin 2) * 5000 + 1 * p.val = t.val * 5000 + p.val; omega
  | ⟨1, _⟩ => show win0_2.index t (1 : Fin 2) * 1 + 1 * 0 = 0; omega

/-- Every point's block of the [1, 128] row staged by window 3 is the whole row. -/
theorem block_row (t : Fin cfg0.N) (q : Fin 128) :
    ((cfg0.win 3).blk t).view.read (Elt Ideal) bv (ix2 (0 : Fin 1) q) = bv (ix2 (0 : Fin 1) q) := by
  obtain ⟨-, -, -, -, -, -, e30, e31, -⟩ := index_maps t
  show bv (((cfg0.win 3).blk t).view.emb (ix2 (0 : Fin 1) q)) = bv (ix2 (0 : Fin 1) q)
  refine congrArg bv (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- THE BODY'S STORE AT POINT t, of the point's blocks of arrays S, W, column, row, is block t of their result
    array. -/
theorem write_back (t : Fin cfg0.N) :
    (cfg0.win 4).cut (grid0.coords t)
        (k0_pay1 (F := Ideal) (((cfg0.win 0).blk t).view.read (Elt Ideal) S) (((cfg0.win 1).blk t).view.read (Elt Ideal) Wm)
          (((cfg0.win 2).blk t).view.read (Elt Ideal) dv) (((cfg0.win 3).blk t).view.read (Elt Ideal) bv))
      = ((cfg0.win 4).blk t).view.read (Elt Ideal) (outOf S Wm dv bv) := by
  obtain ⟨-, -, -, -, -, -, -, -, e40, e41⟩ := index_maps t
  refine funext fun (j : S5000x128.Idx) => ?_
  obtain ⟨p, q, rfl⟩ : ∃ (p : Fin 5000) (q : Fin 128), j = ix2 p q := ⟨j 0, j 1, eq_ix2 j⟩
  show k0_pay1 (F := Ideal) (((cfg0.win 0).blk t).view.read (Elt Ideal) S) (((cfg0.win 1).blk t).view.read (Elt Ideal) Wm)
      (((cfg0.win 2).blk t).view.read (Elt Ideal) dv) (((cfg0.win 3).blk t).view.read (Elt Ideal) bv) (ix2 p q)
    = outOf S Wm dv bv (((cfg0.win 4).blk t).view.emb (ix2 p q))
  refine (body_apply (((cfg0.win 0).blk t).view.read (Elt Ideal) S) (((cfg0.win 1).blk t).view.read (Elt Ideal) Wm)
    (((cfg0.win 2).blk t).view.read (Elt Ideal) dv) (((cfg0.win 3).blk t).view.read (Elt Ideal) bv) p q).trans ?_
  have hrow : outOf S Wm dv bv (((cfg0.win 4).blk t).view.emb (ix2 p q)) = outAtOf S Wm dv bv (rowOf t p) q :=
    outOf_apply S Wm dv bv _ (rowOf t p) q
      (by show win0_4.index t (0 : Fin 2) * 5000 + 1 * p.val = t.val * 5000 + p.val; omega)
      (by show win0_4.index t (1 : Fin 2) * 128 + 1 * q.val = q.val; omega)
  rw [hrow]
  unfold outAtOf
  rw [block_column dv t p, block_row bv t q]
  refine congrArg (fun z => max (z * dv (ix2 (rowOf t p) (0 : Fin 1)) + bv (ix2 (0 : Fin 1) q)) (Ideal.ofBits .f32 0x00000000#32)) ?_
  exact Finset.sum_congr rfl fun k _ => by rw [block_aggregate S t p k, block_weights Wm t k q]

end Arrays

/-! ## The cover -/

/-- An index of the result array is in point t's block iff each coordinate is in the block's range on its axis. -/
theorem mem_block (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v30).slice (win0_4.rect t)).set ↔ _
  rw [View.set_slice_whole, Rect.mem_set_unit]
  exact Iff.rfl

/-- THE TEN BLOCKS TILE THE RESULT: row d is in the block of point d / 5000. -/
theorem covered (i : S50000x128.Idx) :
    ∃ t : Fin cfg0.N, (cfg0.win 4).flush t = true ∧ i ∈ ((cfg0.win 4).blk t).view.set := by
  have hi0 : (i 0).val < 50000 := idx2_lt0 i
  have hi1 : (i 1).val < 128 := idx2_lt1 i
  have hN : (i 0).val / 5000 < cfg0.N := by
    show (i 0).val / 5000 < grid0.N
    rw [N_0]; omega
  obtain ⟨-, -, -, -, -, -, -, -, e40, e41⟩ := index_maps ⟨(i 0).val / 5000, hN⟩
  refine ⟨⟨(i 0).val / 5000, hN⟩, flush0_4 _, ?_⟩
  rw [mem_block]
  intro a
  match a with
  | ⟨0, _⟩ =>
    show win0_4.index ⟨(i 0).val / 5000, hN⟩ (0 : Fin 2) * 5000 ≤ (i 0).val
      ∧ (i 0).val < win0_4.index ⟨(i 0).val / 5000, hN⟩ (0 : Fin 2) * 5000 + 5000
    rw [e40]
    show (i 0).val / 5000 * 5000 ≤ (i 0).val ∧ (i 0).val < (i 0).val / 5000 * 5000 + 5000
    omega
  | ⟨1, _⟩ =>
    show win0_4.index ⟨(i 0).val / 5000, hN⟩ (1 : Fin 2) * 128 ≤ (i 1).val
      ∧ (i 1).val < win0_4.index ⟨(i 0).val / 5000, hN⟩ (1 : Fin 2) * 128 + 128
    rw [e41]; omega

/-! ## The region's arrays -/

variable (m : (ℓ : Loc nD τ sig) → Buf (Elt Ideal) ℓ) (ρ : Dev nD → PrngReg)

/-- The result array of the arrays the region finds. -/
def out (c : Dev nD) : S50000x128.Idx → EReal :=
  outOf (V m c main_v27) (V m c main_arg2) (V m c main_v28) (V m c main_v29)

/-- WHAT POINT t WRITES BACK is block t of the result array `out`. -/
theorem flushed_eq (c : Dev nD) (t : Fin cfg0.N) :
    (dats m 0 c).flushed 4 t = ((cfg0.win 4).blk t).view.read (Elt Ideal) (out m c) := by
  show (cfg0.win 4).cut (grid0.coords t) ((dats m 0 c).after 4 t) = _
  rw [after0_4]
  unfold out0_4
  rw [View.canon_unit_zero zero_offsets]
  simp only [View.ld_unit_zero (S := S5000x128) zero_offsets, View.ld_unit_zero (S := S128x128) zero_offsets,
    View.ld_unit_zero (S := S5000x1) zero_offsets, View.ld_unit_zero (S := S1x128) zero_offsets]
  exact write_back (V m c main_v27) (V m c main_arg2) (V m c main_v28) (V m c main_v29) t

/-- THE RESULT ARRAY after the run is `out`. -/
theorem final (c : Dev nD) : (dats m 0 c).arrAt 4 cfg0.N = out m c :=
  (dats m 0 c).arrAt_eq_of_cover 4 (out m c) (fun t _ => flushed_eq m c t) covered

/-- The kernel's run re-posted: the result array at `out`, the arguments unchanged. -/
theorem run : θ_run defs (onTc (τ := τ) (main (F := Ideal))) ⟨m, fun _ => 0, ρ⟩ fun r => ∀ c : Dev nD,
      r.2.mem ((c : Thread nD τ).loc main_v30) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

/-- The result array at (d, q), over the region's arrays. -/
theorem out_at (c : Dev nD) (d : Fin 50000) (q : Fin 128) :
    out m c (ix2 d q) = outAtOf (V m c main_v27) (V m c main_arg2) (V m c main_v28) (V m c main_v29) d q := rfl

end Cert.Proof.KernelBlocks

end
-- ==== Proof.KernelArrays.lean ====
/-
  What the kernel's pallas_call finds in its operand arrays, read at an index.

  Before its one kernel launch the kernel's program computes, on the host, from the feature matrix x and the edge
  list: the weights dinv, the pre-scaled features xs = x ∘ dinv (row r of x times dinv[r]), the gathered rows
  xs[src(e)], and their scatter-add by destination — the aggregated rows S; and it reshapes dinv to a column
  [50000, 1] and the bias to a row [1, 128]. The index columns and dinv are the same operations the reference
  applies to the same edge list, so the arrays are stated over the reference run's stages of those. At an index:
      S[d, k]      = 0 + ∑ over the edges e landing on d of x[src(e), k] · dinv[src(e)]
      column[d, 0] = dinv[d]          row[0, c] = b[c].
  The host operations come in three stretches (up to the comparison that feeds the `where`, the `where` itself, the
  rest): the first is read once, buffer by buffer, over the launch memory; the other two over the first's result.
-/
import proofs.«155807_j27530740368060_2_alg».proof.Proof.Gen.KernelIdeal.Frame
import proofs.«155807_j27530740368060_2_alg».proof.Proof.Edges
import Idealize.ShloMosaic.Lib.Pipeline.Value
import Idealize.ShloMosaic.Lib.ValueLayout
import Idealize.ShloMosaic.Lib.StableHlo.Run

noncomputable section

open scoped BigOperators

namespace Cert.Proof.KernelArrays

open Idealize.ShloMosaic Idealize.ShloMosaic.ValueIdx Idealize.ShloMosaic.TcCoe Idealize.SL.Sem Idealize.ShloMosaic.StableHlo
open Cert.KernelIdeal Cert.KernelIdeal.Gen
open Cert.ReferenceIdeal.ReadP Cert.Lib.RowScatterGather Cert.Proof.Edges

variable (m : (ℓ : Loc nD τ sig) → Buf (Elt Ideal) ℓ) (c : Dev nD)

/-- The feature matrix x, the edge list, the weight matrix W and the bias b as launched. -/
abbrev argX : S50000x128.Idx → EReal := m ((c : Thread nD τ).loc main_arg0)
abbrev argE : EdgeList := m ((c : Thread nD τ).loc main_arg1)
abbrev argW : S128x128.Idx → EReal := m ((c : Thread nD τ).loc main_arg2)
abbrev argB : S128.Idx → EReal := m ((c : Thread nD τ).loc main_arg3)

/-! ## The first stretch, over the launch memory -/

/-- The source column (raw, self-loops appended). -/
theorem first_src : (StableHlo.after (hostOps0 (F := Ideal)) (fun b => m (c, b)) (Proc.devRef .tc main_v3) : S690000.Idx → BitVec 32)
    = val_main_v3 (F := Ideal) (argE m c) := by
  after_results
  rfl

/-- The destination column (raw, self-loops appended). -/
theorem first_dst : (StableHlo.after (hostOps0 (F := Ideal)) (fun b => m (c, b)) (Proc.devRef .tc main_v6) : S690000.Idx → BitVec 32)
    = val_main_v6 (F := Ideal) (argE m c) := by
  after_results
  rfl

/-- "The degree is positive". -/
theorem first_positive : (StableHlo.after (hostOps0 (F := Ideal)) (fun b => m (c, b)) (Proc.devRef .tc main_v12) : S50000.Idx → BitVec 1)
    = val_main_v12 (F := Ideal) (argE m c) := by
  after_results
  rfl

/-- The reciprocal square root of the degree. -/
theorem first_rsqrt : (StableHlo.after (hostOps0 (F := Ideal)) (fun b => m (c, b)) (Proc.devRef .tc main_v13) : S50000.Idx → EReal)
    = val_main_v13 (F := Ideal) (argE m c) := by
  after_results
  rfl

/-- The zero the `where` falls back to. -/
theorem first_zero : (StableHlo.after (hostOps0 (F := Ideal)) (fun b => m (c, b)) (Proc.devRef .tc main_cst_2) : S_.Idx → EReal)
    = val_main_cst_2 (F := Ideal) := by
  after_results
  rfl

/-- The first stretch writes neither x nor b. -/
theorem first_x : (StableHlo.after (hostOps0 (F := Ideal)) (fun b => m (c, b)) (Proc.devRef .tc main_arg0) : S50000x128.Idx → EReal)
    = argX m c := by
  after_results
theorem first_b : (StableHlo.after (hostOps0 (F := Ideal)) (fun b => m (c, b)) (Proc.devRef .tc main_arg3) : S128.Idx → EReal)
    = argB m c := by
  after_results

/-! ## The `where` stretch's typed references: contents carried to a buffer's own type and back -/

/-- Carried to the buffer and back, contents are unchanged. -/
theorem ofBuf_toBuf {T : BufTy} (x : TRef sig T) (v : T.Contents (Elt Ideal)) : x.ofBuf (x.toBuf v) = v := by
  obtain ⟨r, rfl, _, _⟩ := x
  rfl

/-- At a reference whose value type is the buffer's own, reading the contents off the buffer changes nothing … -/
theorem ofBuf_self (r : Ref sig .tc) (q : r.space ≠ .host) (s : r.isScoped = false) (v : r.ty.Contents (Elt Ideal)) :
    (TRef.of (T := r.ty) r rfl q s).ofBuf v = v := rfl

/-- … and neither does carrying them to it. -/
theorem toBuf_self (r : Ref sig .tc) (q : r.space ≠ .host) (s : r.isScoped = false) (v : r.ty.Contents (Elt Ideal)) :
    (TRef.of (T := r.ty) r rfl q s).toBuf v = v := rfl

/-! ## The arrays at region entry -/

/-- dinv as the kernel's program spells it: the `where` of the first stretch's three results. -/
abbrev dinvSpelt : S50000.Idx → EReal :=
  select (val_main_v12 (F := Ideal) (argE m c)) (val_main_v13 (F := Ideal) (argE m c))
    (broadcastInDim (α := EReal) S50000 ![] Facts₀.bcast_S_S50000 (id (val_main_cst_2 (F := Ideal))))

/-- The source column with negative indices wrapped, as the kernel's program spells it. -/
abbrev srcSpelt : S690000.Idx → BitVec 32 :=
  select (cmpi .slt (val_main_v3 (F := Ideal) (argE m c)) (broadcastInDim S690000 ![] Facts₀.bcast_S_S690000 (constantI S_ 32 0#32)))
    (addi (val_main_v3 (F := Ideal) (argE m c)) (broadcastInDim S690000 ![] Facts₀.bcast_S_S690000 (constantI S_ 32 50000#32)))
    (val_main_v3 (F := Ideal) (argE m c))

/-- The kernel's spellings are the reference run's stages: dinv … -/
theorem dinvSpelt_eq : dinvSpelt m c = val_main_v14 (F := Ideal) (argE m c) := by
  unfold val_main_v14 val_main_call0_v1 val_main_call0_v0
  rfl
/-- … the normalised source column … -/
theorem srcSpelt_eq : broadcastInDim S690000x1 ![0] Facts₀.bcast_S690000_S690000x1_0 (srcSpelt m c)
    = val_main_v20 (F := Ideal) (argE m c) := by
  unfold val_main_v20 val_main_v19 val_main_v16 val_main_v18 val_main_v15 val_main_v17 val_main_c val_main_c_3
  rfl
/-- … the raw destination column … -/
theorem dstSpelt_eq : broadcastInDim S690000x1 ![0] Facts₀.bcast_S690000_S690000x1_0 (val_main_v6 (F := Ideal) (argE m c))
    = val_main_v9 (F := Ideal) (argE m c) := by
  unfold val_main_v9
  rfl
/-- … and the zeros the aggregation starts from. -/
theorem zerosSpelt_eq : broadcastInDim (α := EReal) S50000x128 ![] Facts₀.bcast_S_S50000x128 (constant (F := Ideal) S_ .f32 0x00000000#32)
    = val_main_v41 (F := Ideal) := by
  unfold val_main_v41 val_main_cst_8
  rfl

set_option maxHeartbeats 1600000 in
/-- The aggregated rows as the region finds them, in the program's own spelling. -/
theorem entry_aggregate_spelt : (V m c main_v27 : S50000x128.Idx → EReal)
    = Host.scatterAdd (F := Ideal) (φ := .f32) scatter_S50000x128_S690000x1_S690000x128_1_0_0_1
        (broadcastInDim (α := EReal) S50000x128 ![] Facts₀.bcast_S_S50000x128 (constant (F := Ideal) S_ .f32 0x00000000#32))
        (broadcastInDim S690000x1 ![0] Facts₀.bcast_S690000_S690000x1_0 (val_main_v6 (F := Ideal) (argE m c)))
        (Host.gather (α := EReal) gather_S50000x128_S690000x1_S690000x128_1_0_n_n_0_1_1128
          (mulf (F := Ideal) (φ := .f32) (argX m c) (broadcastInDim (α := EReal) S50000x128 ![0, 1] Facts₀.bcast_S50000x1_S50000x128_0_1
            (broadcastInDim (α := EReal) S50000x1 ![0] Facts₀.bcast_S50000_S50000x1_0 (dinvSpelt m c))))
          (broadcastInDim S690000x1 ![0] Facts₀.bcast_S690000_S690000x1_0 (srcSpelt m c))) := by
  have f3 := first_src m c
  have f6 := first_dst m c
  have f12 := first_positive m c
  have f13 := first_rsqrt m c
  have fz := first_zero m c
  have fx := first_x m c
  show StableHlo.after (List.flatten [hostOps0, hostOps0_1, hostOps0_2]) (fun b => m (c, b)) (Proc.devRef .tc main_v27) = _
  rw [List.flatten_cons, List.flatten_cons, List.flatten_cons, List.flatten_nil, List.append_nil,
    StableHlo.after_append, StableHlo.after_append]
  generalize StableHlo.after (hostOps0 (F := Ideal)) (fun b => m (c, b)) = W₁ at f3 f6 f12 f13 fz fx ⊢
  after_results
  rw [f3, f6, f12, f13, fz, fx]
  rw [ofBuf_self main_cst_2 (by decide) rfl (val_main_cst_2 (F := Ideal)), ofBuf_toBuf, ofBuf_toBuf,
    ofBuf_self main_v12 (by decide) rfl (val_main_v12 (F := Ideal) (argE m c)),
    ofBuf_self main_v13 (by decide) rfl (val_main_v13 (F := Ideal) (argE m c)),
    toBuf_self main_v14 (by decide) rfl]

/-- The aggregated rows as the region finds them: the scatter-add, by raw destination index, of the gathered rows of
    x ∘ dinv. -/
theorem entry_aggregate : (V m c main_v27 : S50000x128.Idx → EReal)
    = Host.scatterAdd (F := Ideal) (φ := .f32) scatter_S50000x128_S690000x1_S690000x128_1_0_0_1 (val_main_v41 (F := Ideal))
        (val_main_v9 (F := Ideal) (argE m c))
        (Host.gather (α := EReal) gather_S50000x128_S690000x1_S690000x128_1_0_n_n_0_1_1128
          (mulf (F := Ideal) (φ := .f32) (argX m c) (broadcastInDim (α := EReal) S50000x128 ![0, 1] Facts₀.bcast_S50000x1_S50000x128_0_1
            (broadcastInDim (α := EReal) S50000x1 ![0] Facts₀.bcast_S50000_S50000x1_0 (val_main_v14 (F := Ideal) (argE m c)))))
          (val_main_v20 (F := Ideal) (argE m c))) := by
  rw [← dinvSpelt_eq, ← srcSpelt_eq, ← dstSpelt_eq, ← zerosSpelt_eq]
  exact entry_aggregate_spelt m c

set_option maxHeartbeats 1600000 in
/-- The column of destination weights as the region finds it, in the program's own spelling. -/
theorem entry_column_spelt : (V m c main_v28 : S50000x1.Idx → EReal)
    = shapeCast S50000x1 (dinvSpelt m c) Facts₀.shapeCasts_S50000_S50000x1 := by
  have f12 := first_positive m c
  have f13 := first_rsqrt m c
  have fz := first_zero m c
  show StableHlo.after (List.flatten [hostOps0, hostOps0_1, hostOps0_2]) (fun b => m (c, b)) (Proc.devRef .tc main_v28) = _
  rw [List.flatten_cons, List.flatten_cons, List.flatten_cons, List.flatten_nil, List.append_nil,
    StableHlo.after_append, StableHlo.after_append]
  generalize StableHlo.after (hostOps0 (F := Ideal)) (fun b => m (c, b)) = W₁ at f12 f13 fz ⊢
  after_results
  rw [f12, f13, fz]
  rw [ofBuf_self main_cst_2 (by decide) rfl (val_main_cst_2 (F := Ideal)), ofBuf_toBuf, ofBuf_toBuf,
    ofBuf_self main_v12 (by decide) rfl (val_main_v12 (F := Ideal) (argE m c)),
    ofBuf_self main_v13 (by decide) rfl (val_main_v13 (F := Ideal) (argE m c)),
    toBuf_self main_v14 (by decide) rfl]
  rfl

/-- The column of destination weights as the region finds it: dinv reshaped to [50000, 1]. -/
theorem entry_column : (V m c main_v28 : S50000x1.Idx → EReal)
    = shapeCast S50000x1 (val_main_v14 (F := Ideal) (argE m c)) Facts₀.shapeCasts_S50000_S50000x1 := by
  rw [← dinvSpelt_eq]
  exact entry_column_spelt m c

set_option maxHeartbeats 1600000 in
/-- The bias row as the region finds it: b reshaped to [1, 128]. -/
theorem entry_row : (V m c main_v29 : S1x128.Idx → EReal)
    = shapeCast S1x128 (argB m c) Facts₀.shapeCasts_S128_S1x128 := by
  have fb := first_b m c
  show StableHlo.after (List.flatten [hostOps0, hostOps0_1, hostOps0_2]) (fun b => m (c, b)) (Proc.devRef .tc main_v29) = _
  rw [List.flatten_cons, List.flatten_cons, List.flatten_cons, List.flatten_nil, List.append_nil,
    StableHlo.after_append, StableHlo.after_append]
  generalize StableHlo.after (hostOps0 (F := Ideal)) (fun b => m (c, b)) = W₁ at fb ⊢
  after_results
  rw [fb]
  rfl

/-! ## The arrays at an index -/

/-- The printed scatter is the row scatter, and at the ideal instance it is the exact sum. -/
theorem scatter_rows_eq (x : S50000x128.Idx → EReal) (idx : IVec S690000x1 32) (upd : S690000x128.Idx → EReal) :
    Host.scatterAdd (F := Ideal) (φ := .f32) scatter_S50000x128_S690000x1_S690000x128_1_0_0_1 x idx upd
      = Ideal.hostScatterAdd (rowScatter 50000 128 690000 Facts₀.scatter_S50000x128_S690000x1_S690000x128_1_0_0_1_wf) x idx upd := by
  unfold Host.scatterAdd
  rw [Ideal.hostScatterAdd_def]
  rfl

/-- The printed gather is the row gather. -/
theorem gather_rows_eq (x : S50000x128.Idx → EReal) (idx : IVec S690000x1 32) :
    Host.gather (α := EReal) gather_S50000x128_S690000x1_S690000x128_1_0_n_n_0_1_1128 x idx
      = Host.gather (rowGather 50000 128 690000 Facts₀.gather_S50000x128_S690000x1_S690000x128_1_0_n_n_0_1_1128_wf) x idx := rfl

/-- The pre-scaled features at (s, k): x[s, k] · dinv[s]. -/
theorem scaled_apply (dv : S50000.Idx → EReal) (s : Fin 50000) (k : Fin 128) :
    mulf (F := Ideal) (φ := .f32) (argX m c) (broadcastInDim (α := EReal) S50000x128 ![0, 1] Facts₀.bcast_S50000x1_S50000x128_0_1
        (broadcastInDim (α := EReal) S50000x1 ![0] Facts₀.bcast_S50000_S50000x1_0 dv)) (ix2 s k)
      = argX m c (ix2 s k) * dv (ix1 s) := by
  refine congrArg (argX m c (ix2 s k) * ·) ?_
  refine (broadcastInDim_apply _ Facts₀.bcast_S50000x1_S50000x128_0_1 _ (ix2 s k) (ix2 s (0 : Fin 1)) (fun a => match a with
      | ⟨0, _⟩ => by show s.val = if (50000 : Nat) = 1 then 0 else s.val; rw [if_neg (by decide)]
      | ⟨1, _⟩ => by show 0 = if (1 : Nat) = 1 then 0 else k.val; rw [if_pos rfl])).trans ?_
  exact broadcastInDim_apply _ Facts₀.bcast_S50000_S50000x1_0 dv (ix2 s (0 : Fin 1)) (ix1 s) (fun a => match a with
      | ⟨0, _⟩ => by show s.val = if (50000 : Nat) = 1 then 0 else s.val; rw [if_neg (by decide)])

/-- THE AGGREGATED ROWS AT (d, k). -/
theorem aggregate_apply (d : Fin 50000) (k : Fin 128) :
    (V m c main_v27 : S50000x128.Idx → EReal) (ix2 d k)
      = Ideal.ofBits .f32 0x00000000#32 + ∑ r ∈ landing (argE m c) d,
          argX m c (ix2 (srcRow (argE m c) r) k) * dinv (argE m c) (srcRow (argE m c) r) := by
  refine (congrFun ((entry_aggregate m c).trans (scatter_rows_eq _ _ _)) (ix2 d k)).trans ?_
  refine (rowScatterAdd_apply _ _ _ _ d k).trans ?_
  refine congrArg₂ (· + ·) ?_ (Finset.sum_congr rfl fun r _ => ?_)
  · rw [val_main_v41_apply, val_main_cst_8_apply, Ideal.ofBits_def]
  · refine (congrFun (gather_rows_eq _ _) (ix2 r k)).trans ?_
    refine (rowGather_apply (by decide) _ _ _ r k).trans ?_
    exact scaled_apply m c _ _ k

/-- THE WEIGHT COLUMN AT (d, 0). -/
theorem column_apply (d : Fin 50000) :
    (V m c main_v28 : S50000x1.Idx → EReal) (ix2 d (0 : Fin 1)) = dinv (argE m c) d := by
  refine (congrFun (entry_column m c) (ix2 d (0 : Fin 1))).trans ?_
  exact shapeCast_apply _ Facts₀.shapeCasts_S50000_S50000x1 (ix2 d (0 : Fin 1)) (ix1 d) (by
    rw [Shape.rowMajor_val_one, Shape.rowMajor_val_two]
    show d.val = d.val * 1 + 0
    omega)

/-- THE BIAS ROW AT (0, c). -/
theorem row_apply (q : Fin 128) :
    (V m c main_v29 : S1x128.Idx → EReal) (ix2 (0 : Fin 1) q) = argB m c (ix1 q) := by
  refine (congrFun (entry_row m c) (ix2 (0 : Fin 1) q)).trans ?_
  exact shapeCast_a_1a_apply _ Facts₀.shapeCasts_S128_S1x128 (0 : Fin 1) q

end Cert.Proof.KernelArrays

end
-- ==== Proof.KernelResult.lean ====
/-
  The kernel's result at an index, over the arguments.

  Entry (d, c) of the kernel's result array is max ((∑ k, S[d, k] · W[k, c]) · column[d, 0] + row[0, c], 0) over the
  arrays its pallas_call finds; with those read at an index (S as the aggregation of the pre-scaled rows, the column
  as dinv, the row as the bias, W as launched) this is the kernel's side of the bridge.
-/
import proofs.«155807_j27530740368060_2_alg».proof.Proof.KernelBlocks
import proofs.«155807_j27530740368060_2_alg».proof.Proof.KernelArrays

noncomputable section

open scoped BigOperators

namespace Cert.Proof.KernelResult

open Idealize.ShloMosaic Idealize.ShloMosaic.ValueIdx Idealize.ShloMosaic.TcCoe Idealize.SL.Sem
open Cert.KernelIdeal Cert.KernelIdeal.Gen
open Cert.Proof.KernelArrays Cert.Proof.KernelBlocks Cert.Proof.Edges

/-- The result at (d, q) of arbitrary arrays, from what the arrays hold at the four places it reads. -/
theorem outAtOf_of_reads (S : S50000x128.Idx → EReal) (Wm : S128x128.Idx → EReal) (dv : S50000x1.Idx → EReal)
    (bv : S1x128.Idx → EReal) (d : Fin 50000) (q : Fin 128) (s w : Fin 128 → EReal) (t b : EReal)
    (hs : ∀ k, S (ix2 d k) = s k) (hw : ∀ k, Wm (ix2 k q) = w k) (ht : dv (ix2 d (0 : Fin 1)) = t)
    (hb : bv (ix2 (0 : Fin 1) q) = b) :
    outAtOf S Wm dv bv d q = max ((∑ k : Fin 128, s k * w k) * t + b) (Ideal.ofBits .f32 0x00000000#32) := by
  unfold outAtOf
  rw [ht, hb]
  refine congrArg (fun z => max (z * t + b) (Ideal.ofBits .f32 0x00000000#32)) ?_
  exact Finset.sum_congr rfl fun k _ => by rw [hs k, hw k]

variable (m : (ℓ : Loc nD τ sig) → Buf (Elt Ideal) ℓ)

/-- THE RESULT AT (d, q), with the region's arrays read at an index: the kernel's side of the bridge. -/
theorem out_apply (c : Dev nD) (d : Fin 50000) (q : Fin 128) :
    out m c (ix2 d q)
      = max ((∑ k : Fin 128, (Ideal.ofBits .f32 0x00000000#32 + ∑ r ∈ landing (argE m c) d,
              argX m c (ix2 (srcRow (argE m c) r) k) * dinv (argE m c) (srcRow (argE m c) r)) * argW m c (ix2 k q))
            * dinv (argE m c) d + argB m c (ix1 q)) (Ideal.ofBits .f32 0x00000000#32) :=
  (out_at m c d q).trans
    (outAtOf_of_reads (V m c main_v27) (V m c main_arg2) (V m c main_v28) (V m c main_v29) d q
      (fun k => Ideal.ofBits .f32 0x00000000#32 + ∑ r ∈ landing (argE m c) d,
        argX m c (ix2 (srcRow (argE m c) r) k) * dinv (argE m c) (srcRow (argE m c) r))
      (fun k => argW m c (ix2 k q)) (dinv (argE m c) d) (argB m c (ix1 q))
      (fun k => aggregate_apply m c d k) (fun k => congrFun (V_main_arg2 m c) (ix2 k q))
      (column_apply m c d) (row_apply m c q))

end Cert.Proof.KernelResult

end
-- ==== Proof.Weights.lean ====
/-
  The normalisation weights and the edge indices, as both programs compute them.

  Both programs build, from the integer edge list, the same three things: the degree of every node (a scatter that
  adds a one per edge into the edge's destination, self-loops included), the weight dinv = 1/sqrt(degree) where the
  degree is positive and 0 elsewhere, and index columns for the edges' sources and destinations. This module reads
  what the rest of the proof needs of them, over the stages of the reference's run (the kernel's program computes
  the same stages; the kernel's value module states its arrays over these very functions):

  * dinv is a real number at every node (a degree is a finite sum of ones, so a real; the reciprocal square root of a
    positive real is a real);
  * an edge whose raw destination index, read signed, is the node d reads dinv at d when it gathers dinv through the
    normalised (negative indices wrapped) and clamped destination index: a nonnegative in-range index is unchanged by
    both.
-/
import proofs.«155807_j27530740368060_2_alg».proof.Proof.Edges
import proofs.«155807_j27530740368060_2_alg».proof.Proof.LibRealSums

noncomputable section

open scoped BigOperators

namespace Cert.Proof.Weights

open Idealize.ShloMosaic Idealize.ShloMosaic.ValueIdx Cert.ReferenceIdeal Cert.ReferenceIdeal.Gen Cert.ReferenceIdeal.ReadP
open Cert.Lib.RealSums Cert.Lib.RowScatterGather Cert.Proof.Edges

/-- A float pattern whose exponent field is not all ones denotes a real number. -/
theorem ieee_real (e m : Nat) {w : Nat} (b : BitVec w) (h : (b.extractLsb' m e).toNat ≠ 2 ^ e - 1) :
    IsReal (Ideal.ieee e m b) := by
  unfold Ideal.ieee
  simp only []
  rw [if_neg h]
  split <;> exact ⟨_, rfl⟩

/-- The words of 0.0 and 1.0 denote real numbers. -/
theorem zero_word_real : IsReal (Ideal.ofBits .f32 0x00000000#32) :=
  show IsReal (Ideal.ieee 8 23 (0x00000000#32 : BitVec 32)) from ieee_real 8 23 (0x00000000#32 : BitVec 32) (by decide)
theorem one_word_real : IsReal (Ideal.ofBits .f32 0x3F800000#32) :=
  show IsReal (Ideal.ieee 8 23 (0x3F800000#32 : BitVec 32)) from ieee_real 8 23 (0x3F800000#32 : BitVec 32) (by decide)

/-- An accumulating scatter of real updates into a real operand is real everywhere, whatever the indices. -/
theorem scatterAdd_real {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (isReal_sum _ _ fun j _ => hu j)

variable (a1 : EdgeList)

/-- The degree scatter starts from zeros … -/
theorem degree_operand_real (i : S50000.Idx) : IsReal (val_main_v8 (F := Ideal) i) := by
  rw [val_main_v8_apply, val_main_cst_0_apply, Ideal.ofBits_def]; exact zero_word_real

/-- … and adds a one per edge. -/
theorem degree_updates_real (j : S690000.Idx) : IsReal (val_main_v7 (F := Ideal) j) := by
  rw [val_main_v7_apply, val_main_cst_apply, Ideal.ofBits_def]; exact one_word_real

/-- The degree is the accumulating scatter of those ones by destination … -/
theorem degree_stage : val_main_v10 (F := Ideal) a1
    = Host.scatterAdd (F := Ideal) (φ := .f32) scatter_S50000_S690000x1_S690000_n_0_0_1 (val_main_v8 (F := Ideal))
        (val_main_v9 (F := Ideal) a1) (val_main_v7 (F := Ideal)) := by
  unfold val_main_v10
  rfl

/-- … which at the ideal instance is the exact sum. -/
theorem degree_ideal : Host.scatterAdd (F := Ideal) (φ := .f32) scatter_S50000_S690000x1_S690000_n_0_0_1 (val_main_v8 (F := Ideal))
      (val_main_v9 (F := Ideal) a1) (val_main_v7 (F := Ideal))
    = Ideal.hostScatterAdd scatter_S50000_S690000x1_S690000_n_0_0_1 (val_main_v8 (F := Ideal)) (val_main_v9 (F := Ideal) a1)
        (val_main_v7 (F := Ideal)) := by
  unfold Host.scatterAdd
  rw [Ideal.hostScatterAdd_def]

/-- Every node's degree is a real number. -/
theorem degree_real (i : S50000.Idx) : IsReal (val_main_v10 (F := Ideal) a1 i) := by
  have e : val_main_v10 (F := Ideal) a1 i = Ideal.hostScatterAdd scatter_S50000_S690000x1_S690000_n_0_0_1
      (val_main_v8 (F := Ideal)) (val_main_v9 (F := Ideal) a1) (val_main_v7 (F := Ideal)) i :=
    congrFun ((degree_stage a1).trans (degree_ideal a1)) i
  rw [e]
  exact scatterAdd_real _ _ _ _ degree_operand_real degree_updates_real i

/-- THE WEIGHT dinv IS A REAL NUMBER AT EVERY NODE: 1/sqrt(degree) where the degree is positive, else 0. -/
theorem dinv_real (i : S50000.Idx) : IsReal (val_main_v14 (F := Ideal) a1 i) := by
  rw [val_main_v14_apply, val_main_v12_apply, val_main_v13_apply]
  obtain ⟨r, hr⟩ := degree_real a1 i
  rw [hr]
  show IsReal (Scalar.select (Ideal.cmp .ogt (r : EReal) _) (Ideal.rsqrt (r : EReal)) _)
  unfold Scalar.select
  split
  · rename_i hc
    -- the comparison holds: 0 < r
    have h0 : val_main_v11 (F := Ideal) i = 0 := by
      rw [val_main_v11_apply, val_main_cst_1_apply]; exact Ideal.ofBits_zero_f32
    rw [h0] at hc
    have hpos : (0 : EReal) < (r : EReal) := by
      by_contra hn
      have : Ideal.cmp .ogt (r : EReal) 0 = 0#1 := by simp [Ideal.cmp, hn]
      rw [this] at hc; exact absurd hc (by decide)
    have hr0 : 0 < r := by exact_mod_cast hpos
    have : Ideal.rsqrt (r : EReal) = (((Real.sqrt r)⁻¹ : ℝ) : EReal) := by
      show (if r < 0 then ⊥ else if r = 0 then ⊤ else (((Real.sqrt r)⁻¹ : ℝ) : EReal)) = _
      rw [if_neg (not_lt.2 hr0.le), if_neg hr0.ne']
    rw [this]; exact isReal_coe _
  · rw [val_main_call0_v1_apply, val_main_call0_v0_apply, val_main_cst_2_apply]; exact zero_word_real

/-- AN EDGE THAT LANDS ON NODE d READS dinv AT d: if the raw destination index of edge r, read signed, is d, then the
    normalised destination index, clamped into the node range, is d again. -/
theorem lands_clamp (r : Fin 690000) (d : Fin 50000) (h : r ∈ landing a1 d) : dstRow a1 r = d := by
  have h := (Finset.mem_filter.1 h).2
  rw [val_main_v9_apply] at h
  show clampRow 50000 (by decide) (val_main_v27 (F := Ideal) a1 (startAt r)) = d
  rw [val_main_v27_apply, val_main_v26_apply, val_main_v23_apply, val_main_v25_apply, val_main_v22_apply,
    val_main_c_4_apply]
  have hidx : idx_main_v27 (startAt r) = idx_main_v9 (startAt r) := rfl
  rw [hidx]
  generalize val_main_v6 (F := Ideal) a1 (idx_main_v9 (startAt r)) = z at h ⊢
  have hd : d.val < 50000 := d.isLt
  have hslt : IntOp.cmpi .slt z 0#32 = 0#1 := by
    have : z.slt 0#32 = false := by
      rw [BitVec.slt_eq_decide]
      simp only [decide_eq_false_iff_not, not_lt]
      rw [h]; simp
    show BitVec.ofBool (z.slt 0#32) = 0#1
    rw [this]; rfl
  rw [hslt, select_zero]
  refine Fin.ext ?_
  show min z.toInt.toNat (50000 - 1) = d.val
  rw [h]; omega

end Cert.Proof.Weights

end
-- ==== Proof.Bridge.lean ====
/-
  The two results are one number at every index.

  At node d and column c the kernel's program computes
      max ((∑ k, S[d, k] · W[k, c]) · dinv[d] + b[c], 0),    S[d, k] = 0 + ∑ over the edges e landing on d of x[src(e), k] · dinv[src(e)],
  and the reference
      max ((0 + ∑ over the edges e landing on d of (∑ k, x[src(e), k] · W[k, c]) · (dinv[src(e)] · dinv[dst(e)])) + b[c], 0).
  The two sums are equal by the exchange law for real numbers: x and W are real under the precondition, dinv is real
  by its construction, and an edge landing on d reads dinv[d] as its destination weight. The bias and the final
  maximum are the same on both sides; the bias's finiteness is never used.
-/
import proofs.«155807_j27530740368060_2_alg».proof.Proof.Weights

noncomputable section

open scoped BigOperators

namespace Cert.Proof.Bridge

open Idealize.ShloMosaic Idealize.ShloMosaic.ValueIdx Cert.ReferenceIdeal.ReadP
open Cert.Lib.RealSums Cert.Proof.Edges Cert.Proof.Weights

/-- THE BRIDGE at node d, column c. -/
theorem results_eq (x0 : (⟨2, ![50000, 128]⟩ : Shape).Idx → EReal) (a1 : EdgeList)
    (x2 : (⟨2, ![128, 128]⟩ : Shape).Idx → EReal) (x3 : (⟨1, ![128]⟩ : Shape).Idx → EReal)
    (hx : ∀ j, IsReal (x0 j)) (hw : ∀ j, IsReal (x2 j)) (d : Fin 50000) (c : Fin 128) :
    max ((∑ k : Fin 128, (Ideal.ofBits .f32 0x00000000#32
              + ∑ r ∈ landing a1 d, x0 (ix2 (srcRow a1 r) k) * dinv a1 (srcRow a1 r)) * x2 (ix2 k c)) * dinv a1 d
          + x3 (ix1 c)) (Ideal.ofBits .f32 0x00000000#32)
      = max ((Ideal.ofBits .f32 0x00000000#32 + ∑ r ∈ landing a1 d,
            (∑ k : Fin 128, x0 (ix2 (srcRow a1 r) k) * x2 (ix2 k c)) * (dinv a1 (srcRow a1 r) * dinv a1 (dstRow a1 r)))
          + x3 (ix1 c)) (Ideal.ofBits .f32 0x00000000#32) := by
  rw [Ideal.ofBits_zero_f32]
  simp only [zero_add]
  refine congrArg (fun z => max (z + x3 (ix1 c)) 0) ?_
  exact aggregate_then_project (landing a1 d) (fun r k => x0 (ix2 (srcRow a1 r) k)) (fun r => dinv a1 (srcRow a1 r))
    (fun k => x2 (ix2 k c)) (dinv a1 d) (fun r => dinv a1 (dstRow a1 r))
    (fun r k => hx _) (fun r => dinv_real a1 _) (fun k => hw _) (dinv_real a1 _)
    (fun r hr => by rw [lands_clamp a1 r d hr])

end Cert.Proof.Bridge

end
-- ==== Proof.lean ====
/-
  A graph-convolution layer, computed in two orders.

  Both programs take node features x [50000, 128], an integer edge list [2, 640000], a weight matrix W [128, 128] and
  a bias b [128]; both append one self-loop per node, count every node's in-degree by a scatter-add of ones, and set
  dinv = 1/sqrt(degree) where the degree is positive and 0 elsewhere.

  The reference multiplies first: h = x · W; for every edge e it gathers row src(e) of h, scales it by
  dinv[src(e)] · dinv[dst(e)], scatter-adds the scaled rows by destination, adds b and clamps at zero.

  The kernel's program aggregates first: on the host it scales row r of x by dinv[r], gathers row src(e) for every
  edge and scatter-adds the rows by destination into S; its one Pallas kernel then computes, block of 5000 rows by
  block, max ((S · W) ∘ dinv + b, 0), with the product's operands passed through bfloat16 — the identity on the
  extended reals.

  At node d and column c the two results are
      max ((∑ k, (∑ over e landing on d of x[src e, k] · dinv[src e]) · W[k, c]) · dinv[d] + b[c], 0)   and
      max ((∑ over e landing on d of (∑ k, x[src e, k] · W[k, c]) · (dinv[src e] · dinv[dst e])) + b[c], 0),
  equal by distributivity and an exchange of two finite sums — laws of the real numbers that fail at the
  infinities, so the proof uses that x and W are finite (the precondition) and that dinv is a real number by its
  construction; an edge that lands on d has destination d, so it reads dinv[d]. Indices are arbitrary 32-bit
  integers: negative ones are wrapped, a gather clamps and a scatter drops what is out of range, identically in
  both programs, and the proof follows those rules rather than assuming the indices in range.

  Modules: LibRealSums (the law), LibRowScatterGather (the scatter and the gathers read at an index),
  LibFiniteIsReal and Finite (the precondition read), Edges and Weights (the index columns and dinv),
  ReferenceValue (the reference at an index), BodyValue, KernelArrays, KernelBlocks and KernelResult (the kernel's
  program at an index), Bridge (the two are equal); here the five claims are assembled.
-/
import proofs.«155807_j27530740368060_2_alg».proof.Defs
import proofs.«155807_j27530740368060_2_alg».proof.Proof.Gen.Kernel
import proofs.«155807_j27530740368060_2_alg».proof.Proof.Gen.Kernel.Skeleton
import proofs.«155807_j27530740368060_2_alg».proof.Proof.Gen.Kernel.Launch
import proofs.«155807_j27530740368060_2_alg».proof.Proof.Gen.Kernel.Points
import proofs.«155807_j27530740368060_2_alg».proof.Proof.Gen.Kernel.Frame
import proofs.«155807_j27530740368060_2_alg».proof.Proof.Gen.KernelIdeal
import proofs.«155807_j27530740368060_2_alg».proof.Proof.Gen.KernelIdeal.Skeleton
import proofs.«155807_j27530740368060_2_alg».proof.Proof.Gen.KernelIdeal.Launch
import proofs.«155807_j27530740368060_2_alg».proof.Proof.Gen.KernelIdeal.Points
import proofs.«155807_j27530740368060_2_alg».proof.Proof.Gen.KernelIdeal.Frame
import proofs.«155807_j27530740368060_2_alg».proof.Proof.Gen.ReferenceIdeal
import proofs.«155807_j27530740368060_2_alg».proof.Proof.Gen.Pre_finite_inputs
import proofs.«155807_j27530740368060_2_alg».proof.Proof.Gen.KernelIdeal.Value
import proofs.«155807_j27530740368060_2_alg».proof.Proof.ReferenceReadPatched
import proofs.«155807_j27530740368060_2_alg».proof.Proof.Finite
import proofs.«155807_j27530740368060_2_alg».proof.Proof.ReferenceValue
import proofs.«155807_j27530740368060_2_alg».proof.Proof.KernelBlocks
import proofs.«155807_j27530740368060_2_alg».proof.Proof.KernelResult
import proofs.«155807_j27530740368060_2_alg».proof.Proof.Bridge
import Idealize.ShloMosaic.Adequacy
import Idealize.ShloMosaic.Init

noncomputable section

namespace Cert.Proof

open Idealize.ShloMosaic Idealize.ShloMosaic.ValueIdx Idealize.ShloMosaic.TcCoe Idealize.SL.Sem
open Cert.Proof.KernelArrays

/-- The word-level kernel's program runs and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealization is the program's own text read on the extended reals. -/
theorem preserves : Cert.preserves_Kernel_KernelIdeal := trivial

/-- Under the precondition the kernel's result array is the reference's function of the same arguments. -/
theorem kernel_eq_reference (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal) (argX m c) (argE m c) (argW m c) (argB m c) = fun _ => 1#1) :
    Cert.Proof.KernelBlocks.out m c
      = Cert.ReferenceIdeal.ReadP.val_main_v47 (F := Ideal) (argX m c) (argE m c) (argW m c) (argB m c) := by
  obtain ⟨hx, hw⟩ := Cert.Proof.Finite.inputs_real _ _ _ _ hpre
  funext i
  obtain ⟨d, q, rfl⟩ : ∃ (d : Fin 50000) (q : Fin 128), i = ix2 d q := ⟨i 0, i 1, eq_ix2 i⟩
  rw [Cert.Proof.KernelResult.out_apply, Cert.Proof.ReferenceValue.reference_apply]
  exact Cert.Proof.Bridge.results_eq _ _ _ _ hx hw d q

/-- From memories agreeing on the arguments both programs end with the same result array: the reference's function
    of the arguments. -/
theorem algebraic : Cert.algebraic_KernelIdeal_ReferenceIdeal := by
  intro m ρ m' ρ' hpre hagree
  refine ⟨fun c => Cert.ReferenceIdeal.ReadP.val_main_v47 (F := Ideal) (argX m c) (argE m c) (argW m c) (argB m c), ?_, ?_⟩
  · exact (θ_run Cert.KernelIdeal.defs _ _).mono
      (fun r h c => ⟨(h c).1.trans (kernel_eq_reference m c (hpre c)), (h c).2⟩) (Cert.Proof.KernelBlocks.run m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v47_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
